-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x2048, .f32⟩
  | .local _ .vmem, ⟨3, _⟩ => ⟨S512x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .f32 = 32 ∨ (Rect.block (s := S8192x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .f32 = 32 ∨ (Rect.block (s := S8192x2048) S1024x2048.size (cc0_transform_2 i) (hinb0_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .i1⟩
  | .hbm, ⟨5, _⟩ => ⟨S_, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S2048x2048, .f32⟩
  | .hbm, ⟨13, _⟩ => ⟨S2048x2048, .i1⟩
  | .hbm, ⟨14, _⟩ => ⟨S_, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S_S2048x2048 : S_.BroadcastsInDim S2048x2048 (![] : Fin 0 → Fin S2048x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Pieces.lean ====
/-
  What one grid point leaves behind, case by case.

  The body has three control cases. At the first point of a row block's run (case A) it stores the zero block into the
  accumulator, reads it back, adds the point's product and stores the total. At the two middle points (case B) it adds
  the point's product onto what the point before left. At the last point (case C) it does the same and then copies the
  accumulator into the output block. Every store writes the whole buffer, so what a buffer ends holding is the last
  store's value, and every load reads a whole buffer, so it reads the contents as they are.

  In each case the accumulator therefore ends at ONE application of the step function `k0_pay2` (the running total
  plus the point's product) to the point's two input blocks and to what the accumulator held on entry — the zero block
  `k0_pay1` in case A —, and in case C the output block ends at the same value.
-/
import proofs.«142266_j44908178047611_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The offsets of a whole-buffer rectangle are all zero. -/
theorem hz : (![0, 0] : Fin 2 → Nat) = fun _ => 0 := funext fun a => by fin_cases a <;> rfl

/-- Case A (the first point of a run): the accumulator ends at the step function applied to the zero block. -/
theorem scratch_A (c : Dev nD) (i : grid0.Coords) (arg2 : Memref sig .tc .vmem S1024x512 .f32) (harg2 : arg2.IsWhole) (arg3 : Memref sig .tc .vmem S512x2048 .f32) (harg3 : arg3.IsWhole) (arg4 : Memref sig .tc .vmem S1024x2048 .f32) (harg4 : arg4.IsWhole) (arg5 : Memref sig .tc .vmem S1024x2048 .f32) (harg5 : arg5.IsWhole) (hc0 : cond0_0 i) (hc1 : ¬cond0_1 i)
    (x0 : Vec F S1024x512 .f32) (x1 : Vec F S512x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x2048) hz, View.readCov_unit_zero (S := S1024x2048) _ hz]
  simp only [View.readAt_eq_ld, harg2.read_unread, harg3.read_unread, harg5.read_unread, View.ld_unit_zero (S := S1024x512) hz, View.ld_unit_zero (S := S512x2048) hz, View.ld_unit_zero (S := S1024x2048) hz]

/-- Case B (a middle point): the accumulator ends at the step function applied to what the point before left. -/
theorem scratch_B (c : Dev nD) (i : grid0.Coords) (arg2 : Memref sig .tc .vmem S1024x512 .f32) (harg2 : arg2.IsWhole) (arg3 : Memref sig .tc .vmem S512x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : ¬cond0_1 i)
    (x0 : Vec F S1024x512 .f32) (x1 : Vec F S512x2048 .f32) (xs0 : Vec F S1024x2048 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero (S := S1024x2048) hz]
  simp only [View.readAt_eq_ld, harg2.read_unread, harg3.read_unread, harg5.read_unread, View.ld_unit_zero (S := S1024x512) hz, View.ld_unit_zero (S := S512x2048) hz, View.ld_unit_zero (S := S1024x2048) hz]

/-- Case C (the last point of a run): the accumulator ends at the same value, … -/
theorem scratch_C (c : Dev nD) (i : grid0.Coords) (arg2 : Memref sig .tc .vmem S1024x512 .f32) (harg2 : arg2.IsWhole) (arg3 : Memref sig .tc .vmem S512x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x512 .f32) (x1 : Vec F S512x2048 .f32) (xs0 : Vec F S1024x2048 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1024x2048) hz]
  simp only [View.readAt_eq_ld, harg2.read_unread, harg3.read_unread, harg5.read_unread, View.ld_unit_zero (S := S1024x512) hz, View.ld_unit_zero (S := S512x2048) hz, View.ld_unit_zero (S := S1024x2048) hz]

/-- … and the output block ends at the accumulator read back after that store: the same value again. -/
theorem out_C (c : Dev nD) (i : grid0.Coords) (arg2 : Memref sig .tc .vmem S1024x512 .f32) (harg2 : arg2.IsWhole) (arg3 : Memref sig .tc .vmem S512x2048 .f32) (harg3 : arg3.IsWhole) (arg4 : Memref sig .tc .vmem S1024x2048 .f32) (harg4 : arg4.IsWhole) (arg5 : Memref sig .tc .vmem S1024x2048 .f32) (harg5 : arg5.IsWhole) (hc0 : ¬cond0_0 i) (hc1 : cond0_1 i)
    (x0 : Vec F S1024x512 .f32) (x1 : Vec F S512x2048 .f32) (xs0 : Vec F S1024x2048 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024x2048) hz, View.readCov_unit_zero (S := S1024x2048) _ hz]
  simp only [View.readAt_eq_ld, harg2.read_unread, harg3.read_unread, harg5.read_unread, View.ld_unit_zero (S := S1024x512) hz, View.ld_unit_zero (S := S512x2048) hz, View.ld_unit_zero (S := S1024x2048) hz]

end Cert.KernelIdeal.Pieces

end
-- ==== Proof.Chain.lean ====
/-
  The accumulator over one run of four grid points.

  The grid is `8 × 4`: point `t` handles row block `t / 4` of `x` and contraction block `t % 4`. The four points of a
  row block run consecutively. The first resets the accumulator to zero and adds its product; the next two add theirs
  onto what the point before left; the last adds its own and copies the total into the output block. So the output
  block the last point leaves is the step function applied four times, innermost to the zero block, over the four
  points' input blocks in order.
-/
import proofs.«142266_j44908178047611_1_alg».proof.Proof.Pieces

noncomputable section

namespace Cert.KernelIdeal.Chain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The step at a point: the running total plus the product of the point's two input blocks. -/
abbrev stepAt (c : Dev nD) (t : Fin cfg0.N) (acc : Vec F S1024x2048 .f32) : Vec F S1024x2048 .f32 :=
  k0_pay2 (F := F) (iblk m c 0 t) (iblk m c 1 t) acc

/-- After the first point of a run the accumulator holds the step applied to the zero block. -/
theorem acc_first (c : Dev nD) (n : ℕ) (h : n < cfg0.N) (h0 : n % 4 = 0) :
    (outsAt0 m c n h).2 = stepAt m c ⟨n, h⟩ (k0_pay1 (F := F)) := by
  have h1 : ¬(⟨n, h⟩ : Fin cfg0.N).val % 4 = 3 := by dsimp only; omega
  rw [outsAt0_A m c ⟨n, h⟩ h0 h1]
  dsimp only
  exact Pieces.scratch_A (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _)
    ((hcond0_0 ⟨n, h⟩).mpr h0) (fun hh => h1 ((hcond0_1 ⟨n, h⟩).mp hh)) (iblk m c 0 ⟨n, h⟩) (iblk m c 1 ⟨n, h⟩)

/-- After a middle point it holds the step applied to what the point before left. -/
theorem acc_mid (c : Dev nD) (n : ℕ) (h : n + 1 < cfg0.N) (h0 : ¬(n + 1) % 4 = 0) (h1 : ¬(n + 1) % 4 = 3) :
    (outsAt0 m c (n + 1) h).2 = stepAt m c ⟨n + 1, h⟩ (outsAt0 m c n (Nat.lt_of_succ_lt h)).2 := by
  rw [outsAt0_B m c ⟨n + 1, h⟩ h0 h1]
  dsimp only
  exact Pieces.scratch_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
    (fun hh => h0 ((hcond0_0 ⟨n + 1, h⟩).mp hh)) (fun hh => h1 ((hcond0_1 ⟨n + 1, h⟩).mp hh))
    (iblk m c 0 ⟨n + 1, h⟩) (iblk m c 1 ⟨n + 1, h⟩) (outsAt0 m c n (Nat.lt_of_succ_lt h)).2

/-- After the last point of a run the OUTPUT block holds the step applied to what the point before left. -/
theorem out_last (c : Dev nD) (n : ℕ) (h : n + 1 < cfg0.N) (h0 : ¬(n + 1) % 4 = 0) (h1 : (n + 1) % 4 = 3) :
    (outsAt0 m c (n + 1) h).1 = stepAt m c ⟨n + 1, h⟩ (outsAt0 m c n (Nat.lt_of_succ_lt h)).2 := by
  rw [outsAt0_C m c ⟨n + 1, h⟩ h0 h1]
  dsimp only
  exact Pieces.out_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
    (fun hh => h0 ((hcond0_0 ⟨n + 1, h⟩).mp hh)) ((hcond0_1 ⟨n + 1, h⟩).mpr h1)
    (iblk m c 0 ⟨n + 1, h⟩) (iblk m c 1 ⟨n + 1, h⟩) (outsAt0 m c n (Nat.lt_of_succ_lt h)).2

/-- The whole run: the output block after the last of the four points `n, n + 1, n + 2, n + 3` of a row block is the
    four steps, in point order, from the zero block. -/
theorem out_run (c : Dev nD) (n : ℕ) (h : n + 1 + 1 + 1 < cfg0.N) (h0 : n % 4 = 0) :
    (outsAt0 m c (n + 1 + 1 + 1) h).1
      = stepAt m c ⟨n + 1 + 1 + 1, h⟩ (stepAt m c ⟨n + 1 + 1, Nat.lt_of_succ_lt h⟩
          (stepAt m c ⟨n + 1, Nat.lt_of_succ_lt (Nat.lt_of_succ_lt h)⟩
            (stepAt m c ⟨n, Nat.lt_of_succ_lt (Nat.lt_of_succ_lt (Nat.lt_of_succ_lt h))⟩ (k0_pay1 (F := F))))) := by
  rw [out_last m c (n + 1 + 1) h (by omega) (by omega),
    acc_mid m c (n + 1) (Nat.lt_of_succ_lt h) (by omega) (by omega),
    acc_mid m c n (Nat.lt_of_succ_lt (Nat.lt_of_succ_lt h)) (by omega) (by omega),
    acc_first m c n (Nat.lt_of_succ_lt (Nat.lt_of_succ_lt (Nat.lt_of_succ_lt h))) h0]

end Cert.KernelIdeal.Chain

end
-- ==== Proof.LibBlockedSum.lean ====
/-
  Sums taken block by block.

  A sum over `B * K` consecutive indices is the sum over the `B` blocks of the sums inside each block of `K`
  (`sum_blocks`; the index of position `k` of block `b` is `k + K * b`), and a running total that starts as
  `0 + g 0` and adds `g (n + 1)` at step `n + 1` holds, after step `n`, the sum of `g 0, …, g n` (`running_total`).
  Together (`blocked_total`): a total accumulated one block at a time, from zero, is the whole sum. Everything is
  stated in a commutative additive monoid, so it holds on the extended reals, where no finiteness is needed:
  only commutativity, associativity and `0 + x = x` are used.
-/
import Mathlib.Algebra.BigOperators.Fin
import Mathlib.Algebra.BigOperators.Intervals
import Mathlib.Logic.Equiv.Fin.Basic

namespace Cert.LibBlockedSum

open Finset

variable {M : Type*} [AddCommMonoid M]

/-- The index, among `B * K` consecutive ones, of position `k` inside block `b`: its value is `k + K * b`. -/
abbrev slot (B K : ℕ) (b : Fin B) (k : Fin K) : Fin (B * K) := finProdFinEquiv (b, k)

theorem slot_val (B K : ℕ) (b : Fin B) (k : Fin K) : (slot B K b k).val = k.val + K * b.val := rfl

/-- A sum over `B * K` indices, regrouped as `B` blocks of `K`. -/
theorem sum_blocks (B K : ℕ) (f : Fin (B * K) → M) :
    ∑ i, f i = ∑ b : Fin B, ∑ k : Fin K, f (slot B K b k) := by
  rw [← Equiv.sum_comp (finProdFinEquiv (m := B) (n := K)) f, Fintype.sum_prod_type]

/-- A running total that starts as `0 + g 0` and adds `g (n + 1)` at step `n + 1` is, after step `n`, the sum of
    `g 0, …, g n`. -/
theorem running_total (g a : ℕ → M) (h0 : a 0 = 0 + g 0) (hs : ∀ n, a (n + 1) = a n + g (n + 1)) (n : ℕ) :
    a n = ∑ i ∈ range (n + 1), g i := by
  induction n with
  | zero => rw [h0, zero_add, sum_range_one]
  | succ n ih => rw [hs, ih, sum_range_succ _ (n + 1)]

/-- The same, for steps counted by `Fin B`: after the last of `B` steps the running total is the sum of all `B` terms. -/
theorem running_total_fin (B : ℕ) (g : Fin (B + 1) → M) (a : ℕ → M)
    (h0 : a 0 = 0 + g 0) (hs : ∀ n (h : n + 1 < B + 1), a (n + 1) = a n + g ⟨n + 1, h⟩) :
    a B = ∑ b, g b := by
  have key : ∀ n (h : n < B + 1), a n = ∑ i : Fin (n + 1), g ⟨i.val, lt_of_lt_of_le i.isLt h⟩ := by
    intro n
    induction n with
    | zero => intro h; rw [h0, zero_add, Fin.sum_univ_one]; rfl
    | succ n ih =>
      intro h
      rw [hs n h, ih (Nat.lt_of_succ_lt h), Fin.sum_univ_castSucc (n := n + 1)]
      rfl
  rw [key B (Nat.lt_succ_self B)]

/-- A total accumulated one block at a time from zero is the whole sum: if the running total starts as `0` plus the
    first block's sum and each later step adds that block's sum, then after the last of `B + 1` blocks it is the sum
    over all `(B + 1) * K` indices. -/
theorem blocked_total (B K : ℕ) (f : Fin ((B + 1) * K) → M) (a : ℕ → M)
    (h0 : a 0 = 0 + ∑ k : Fin K, f (slot (B + 1) K 0 k))
    (hs : ∀ n (h : n + 1 < B + 1), a (n + 1) = a n + ∑ k : Fin K, f (slot (B + 1) K ⟨n + 1, h⟩ k)) :
    a B = ∑ i, f i := by
  rw [sum_blocks (B + 1) K f]
  exact running_total_fin B (fun b => ∑ k : Fin K, f (slot (B + 1) K b k)) a h0 hs

end Cert.LibBlockedSum
-- ==== Proof.Spec.lean ====
/-
  The function both programs compute, and the one law that joins their two arrangements of it.

  Write `s(a)` for the two-valued sign of an extended real `a`: `+1` where `0 ≤ a` and `-1` elsewhere, so that the
  sign of zero is `+1`. The binarized dense layer of `x : [8192, 2048]` and `w : [2048, 2048]` is

      dense x w (r, q) = ∑ k < 2048, s(x (r, k)) · s(w (k, q)).

  The reference takes this sum in one piece. The kernel splits the 2048 terms into four consecutive blocks of 512 and
  adds the blocks' sums, first to last, onto a total that starts at zero. Addition of extended reals is commutative
  and associative and `0 + a = a`, which is all that regrouping a finite sum needs: no term has to be finite.
-/
import Idealize.ShloMosaic.PureOps.Ideal
import Idealize.ShloMosaic.PureOps.Ideal.Laws
import Idealize.ShloMosaic.Lib.ValueIdx
import proofs.«142266_j44908178047611_1_alg».proof.Proof.LibBlockedSum

noncomputable section

namespace Cert.BinaryDense

open Idealize.ShloMosaic Idealize.ShloMosaic.ValueIdx

/-- The index types of the two arguments (and of the result, which has `x`'s shape). -/
abbrev XIdx : Type := (⟨2, ![8192, 2048]⟩ : Shape).Idx
abbrev WIdx : Type := (⟨2, ![2048, 2048]⟩ : Shape).Idx

/-- The two-valued sign: `+1.0` where `0 ≤ a`, `-1.0` elsewhere, the three constants written as the f32 words of
    `0.0`, `1.0` and `-1.0`. -/
def bsign (a : EReal) : EReal :=
  Scalar.select (FloatOps.cmpf .oge (a : Ideal .f32) (Ideal.ofBits .f32 0x00000000#32))
    (Ideal.ofBits .f32 0x3F800000#32) (Ideal.ofBits .f32 0xBF800000#32)

/-- The word of `-1.0` denotes the negative of what the word of `1.0` denotes. -/
theorem ofBits_neg_one_f32 : Ideal.ofBits .f32 0xBF800000#32 = -Ideal.ofBits .f32 0x3F800000#32 := by
  have h1 : Ideal.ofBits .f32 0x3F800000#32 = ((1 : ℝ) : EReal) := by
    simp [Ideal.ofBits, Ideal.ieee, -EReal.coe_mul]; norm_num
  have h2 : Ideal.ofBits .f32 0xBF800000#32 = ((-(1 : ℝ) : ℝ) : EReal) := by
    simp [Ideal.ofBits, Ideal.ieee, -EReal.coe_mul, -EReal.coe_neg]; norm_num
  rw [h1, h2, EReal.coe_neg]

/-- The binarized dense layer, entry by entry: the sum over the 2048 contracted positions of the product of the signs. -/
def dense (x : XIdx → EReal) (w : WIdx → EReal) : XIdx → EReal :=
  fun i => ∑ k : Fin 2048, bsign (x (ix2 (i 0 : Fin 8192) k)) * bsign (w (ix2 k (i 1 : Fin 2048)))

/-- The part of that sum contributed by block `j` of the four blocks of 512 contracted positions: position `k` of
    block `j` is the contracted position `k + 512·j`. -/
def blockSum (x : XIdx → EReal) (w : WIdx → EReal) (r : Fin 8192) (q : Fin 2048) (j : Fin 4) : EReal :=
  ∑ k : Fin 512, bsign (x (ix2 r (⟨k.val + 512 * j.val, by have := k.isLt; have := j.isLt; omega⟩ : Fin 2048)))
    * bsign (w (ix2 (⟨k.val + 512 * j.val, by have := k.isLt; have := j.isLt; omega⟩ : Fin 2048) q))

/-- The whole sum is the four blocks' sums added, first to last, onto zero. -/
theorem dense_eq_chain (x : XIdx → EReal) (w : WIdx → EReal) (r : Fin 8192) (q : Fin 2048) :
    dense x w (ix2 r q)
      = 0 + blockSum x w r q 0 + blockSum x w r q 1 + blockSum x w r q 2 + blockSum x w r q 3 := by
  have h := Cert.LibBlockedSum.sum_blocks (M := EReal) 4 512
    (fun κ : Fin (4 * 512) => bsign (x (ix2 r (⟨κ.val, κ.isLt⟩ : Fin 2048))) * bsign (w (ix2 (⟨κ.val, κ.isLt⟩ : Fin 2048) q)))
  rw [Fin.sum_univ_four] at h
  rw [zero_add]
  exact h

end Cert.BinaryDense

end
-- ==== Proof.Payload.lean ====
/-
  The body's arithmetic at one entry.

  One grid point of the kernel handles a `[1024, 512]` block of `x` and a `[512, 2048]` block of `w`: it turns both
  into their two-valued signs, multiplies the two blocks of signs in the matrix unit (starting from zero) and adds
  the product onto the `[1024, 2048]` running total. On the extended reals the matrix product at entry `(p, q)` is the
  plain sum over the 512 contracted positions, so the step at that entry is

      acc (p, q) + ∑ k < 512, s(x₀ (p, k)) · s(x₁ (k, q)).

  The reset's value is the zero block.
-/
import proofs.«142266_j44908178047611_1_alg».proof.Proof.Gen.KernelIdeal.Skeleton
import proofs.«142266_j44908178047611_1_alg».proof.Proof.Spec
import Idealize.ShloMosaic.Lib.ValueIdx
import Idealize.ShloMosaic.Lib.Pipeline.Value
import Idealize.ShloMosaic.PureOps.Ideal.Laws

noncomputable section

namespace Cert.KernelIdeal.Payload
open Cert.KernelIdeal Cert.KernelIdeal.Gen Idealize.ShloMosaic Idealize.ShloMosaic.ValueIdx Cert.BinaryDense

/-- The reset stores the zero block: every entry is the extended real zero. -/
theorem reset_apply (i : S1024x2048.Idx) : k0_pay1 (F := Ideal) i = 0 := by
  unfold k0_pay1
  rw [shapeCast_self]
  exact Ideal.ofBits_zero_f32

/-- The matrix product `[1024, 512] × [512, 2048]` contracts the left operand's axis 1 with the right operand's axis 0:
    at output entry `j` and contracted position `κ` the left operand is read at row `j 0`, … -/
theorem lhs_row (j : S1024x2048.Idx) (κ : dot_S1024x512_S512x2048_S1024x2048_1_0_0_1_n_n.contr.Idx) : (dot_S1024x512_S512x2048_S1024x2048_1_0_0_1_n_n.lhsIdx j κ 0).val = (j 0).val := by
  unfold DotDims.lhsIdx
  rw [dif_neg (show ¬(0 : Fin S1024x512.rank) ∈ dot_S1024x512_S512x2048_S1024x2048_1_0_0_1_n_n.lhsBatch by decide),
    dif_pos (show (0 : Fin S1024x512.rank) ∈ dot_S1024x512_S512x2048_S1024x2048_1_0_0_1_n_n.lhsNonContracting by decide)]
  rfl
/-- … column `κ`, -/
theorem lhs_col (j : S1024x2048.Idx) (κ : dot_S1024x512_S512x2048_S1024x2048_1_0_0_1_n_n.contr.Idx) : (dot_S1024x512_S512x2048_S1024x2048_1_0_0_1_n_n.lhsIdx j κ 1).val = (κ ⟨0, by decide⟩).val :=
  dot_S1024x512_S512x2048_S1024x2048_1_0_0_1_n_n.lhsIdx_val_of_single rfl j κ
/-- and the right operand at row `κ`, -/
theorem rhs_row (j : S1024x2048.Idx) (κ : dot_S1024x512_S512x2048_S1024x2048_1_0_0_1_n_n.contr.Idx) : (dot_S1024x512_S512x2048_S1024x2048_1_0_0_1_n_n.rhsIdx j κ 0).val = (κ ⟨0, by decide⟩).val :=
  dot_S1024x512_S512x2048_S1024x2048_1_0_0_1_n_n.rhsIdx_val_of_single rfl j κ
/-- column `j 1`. -/
theorem rhs_col (j : S1024x2048.Idx) (κ : dot_S1024x512_S512x2048_S1024x2048_1_0_0_1_n_n.contr.Idx) : (dot_S1024x512_S512x2048_S1024x2048_1_0_0_1_n_n.rhsIdx j κ 1).val = (j 1).val := by
  unfold DotDims.rhsIdx
  rw [dif_neg (show ¬(1 : Fin S512x2048.rank) ∈ dot_S1024x512_S512x2048_S1024x2048_1_0_0_1_n_n.rhsBatch by decide),
    dif_pos (show (1 : Fin S512x2048.rank) ∈ dot_S1024x512_S512x2048_S1024x2048_1_0_0_1_n_n.rhsNonContracting by decide)]
  rfl

/-- One step of the accumulation, entry by entry: onto the running total `acc` the body adds the sum, over the 512
    contracted positions of the point's blocks, of the products of the two-valued signs (rounding the signs to bf16 on
    the way into the matrix unit changes nothing on the extended reals, and the matrix unit starts from zero). -/
theorem step_apply (x0 : Vec Ideal S1024x512 .f32) (x1 : Vec Ideal S512x2048 .f32) (acc : Vec Ideal S1024x2048 .f32)
    (p : Fin 1024) (q : Fin 2048) :
    k0_pay2 (F := Ideal) x0 x1 acc (ix2 p q)
      = acc (ix2 p q) + ∑ k : Fin 512, bsign (x0 (ix2 p k)) * bsign (x1 (ix2 k q)) := by
  unfold k0_pay2
  rw [shapeCast_self]
  refine congrArg (acc (ix2 p q) + ·) ?_
  refine (Ideal.matmul_constant_zero_apply dot_S1024x512_S512x2048_S1024x2048_1_0_0_1_n_n none _ _ (ix2 p q)).trans ?_
  rw [← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p q) ((contrEquiv1 dot_S1024x512_S512x2048_S1024x2048_1_0_0_1_n_n 512 rfl rfl).symm k) = ix2 p k := funext fun a => Fin.ext (by
    match a with
    | ⟨0, _⟩ => exact lhs_row _ _
    | ⟨1, _⟩ => exact (lhs_col _ _).trans hk)
  have er : dot_S1024x512_S512x2048_S1024x2048_1_0_0_1_n_n.rhsIdx (ix2 p q) ((contrEquiv1 dot_S1024x512_S512x2048_S1024x2048_1_0_0_1_n_n 512 rfl rfl).symm k) = ix2 k q := funext fun a => Fin.ext (by
    match a with
    | ⟨0, _⟩ => exact (rhs_row _ _).trans hk
    | ⟨1, _⟩ => exact rhs_col _ _)
  rw [el, er]
  rfl

end Cert.KernelIdeal.Payload
end
-- ==== Proof.Blocks.lean ====
/-
  From the blocks to the whole result array.

  Point `t` of the `8 × 4` grid reads rows `1024·(t / 4) …` and columns `512·(t % 4) …` of `x`, rows `512·(t % 4) …`
  of `w`, and its output block is rows `1024·(t / 4) …` of the result. The output is written back at the last point
  of each row block only (`t % 4 = 3`), and by then the accumulator has gone through the four contraction blocks in
  order. Entry `(p, q)` of that block is therefore `0 + B₀ + B₁ + B₂ + B₃`, with `Bⱼ` the sum of the sign products
  over contraction block `j` for row `1024·(t / 4) + p` and column `q` — which is `dense` at that entry. The eight
  written blocks cover the array (row `r` lies in block `r / 1024`), so the array ends holding `dense`.
-/
import proofs.«142266_j44908178047611_1_alg».proof.Proof.Chain
import proofs.«142266_j44908178047611_1_alg».proof.Proof.Payload
import proofs.«142266_j44908178047611_1_alg».proof.Proof.Gen.KernelIdeal.Value

noncomputable section

namespace Cert.KernelIdeal.Blocks

open Cert.KernelIdeal Cert.KernelIdeal.Gen Idealize.ShloMosaic Idealize.ShloMosaic.TcCoe Idealize.SL.Sem
open Idealize.ShloMosaic.ValueIdx Cert.BinaryDense
open Idealize.ShloMosaic.Pipeline (Dat)

variable (m : (ℓ : Loc nD τ sig) → Buf (Elt Ideal) ℓ) (ρ : Dev nD → PrngReg)

/-- The printed index maps, decided over the grid's 32 points: which block of each array point `t` names. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Entry `(p, k)` of `x`'s block at point `t` is `x` at row `1024·(t / 4) + p`, column `512·(t % 4) + k`. -/
theorem xblk_apply (c : Dev nD) (t : Fin cfg0.N) (p : Fin 1024) (k : Fin 512) (r : Fin 8192) (κ : Fin 2048)
    (hr : r.val = 1024 * (t.val / 4) + p.val) (hκ : κ.val = 512 * (t.val % 4) + k.val) :
    iblk m c 0 t (ix2 p k) = V m c main_arg0 (ix2 r κ) := by
  obtain ⟨e0, e1, -⟩ := idx_facts t
  show V m c main_arg0 (((cfg0.win 0).blk t).view.emb (ix2 p k)) = V m c main_arg0 (ix2 r κ)
  refine congrArg (V m c main_arg0) (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = κ.val; rw [e1, hκ]; omega

/-- Entry `(k, q)` of `w`'s block at point `t` is `w` at row `512·(t % 4) + k`, column `q`. -/
theorem wblk_apply (c : Dev nD) (t : Fin cfg0.N) (k : Fin 512) (q : Fin 2048) (κ : Fin 2048)
    (hκ : κ.val = 512 * (t.val % 4) + k.val) :
    iblk m c 1 t (ix2 k q) = V m c main_arg1 (ix2 κ q) := by
  obtain ⟨-, -, e2, e3, -⟩ := idx_facts t
  show V m c main_arg1 (((cfg0.win 1).blk t).view.emb (ix2 k q)) = V m c main_arg1 (ix2 κ q)
  refine congrArg (V m c main_arg1) (funext fun a => Fin.ext ?_)
  match a with
  | ⟨0, _⟩ => show win0_1.index t (0 : Fin 2) * 512 + 1 * k.val = κ.val; rw [e2, hκ]; omega
  | ⟨1, _⟩ => show win0_1.index t (1 : Fin 2) * 2048 + 1 * q.val = q.val; rw [e3]; omega

/-- The product a point adds at entry `(p, q)` of its block is the part of `dense`'s sum over the point's
    contraction block: at point `4·g + j`, block `j`'s part for row `1024·g + p`. -/
theorem point_sum (c : Dev nD) (t : Fin cfg0.N) (g : Fin 8) (j : Fin 4) (ht : t.val = 4 * g.val + j.val)
    (p : Fin 1024) (q : Fin 2048) (r : Fin 8192) (hr : r.val = 1024 * g.val + p.val) :
    ∑ k : Fin 512, bsign (iblk m c 0 t (ix2 p k)) * bsign (iblk m c 1 t (ix2 k q))
      = blockSum (V m c main_arg0) (V m c main_arg1) r q j := by
  unfold blockSum
  refine Finset.sum_congr rfl fun k _ => ?_
  have hg := g.isLt
  have hj := j.isLt
  rw [xblk_apply m c t p k r ⟨k.val + 512 * j.val, by have := k.isLt; omega⟩ (by rw [hr]; omega) (by dsimp only; omega),
    wblk_apply m c t k q ⟨k.val + 512 * j.val, by have := k.isLt; omega⟩ (by dsimp only; omega)]

/-- The output block after the last point of row block `g`, at entry `(p, q)`: `dense` at row `1024·g + p`. -/
theorem out_eq_dense (c : Dev nD) (g : Fin 8) (h : 4 * g.val + 1 + 1 + 1 < cfg0.N) (p : Fin 1024) (q : Fin 2048)
    (r : Fin 8192) (hr : r.val = 1024 * g.val + p.val) :
    (outsAt0 m c (4 * g.val + 1 + 1 + 1) h).1 (ix2 p q) = dense (V m c main_arg0) (V m c main_arg1) (ix2 r q) := by
  have h2 : 4 * g.val + 1 + 1 < cfg0.N := Nat.lt_of_succ_lt h
  have h1 : 4 * g.val + 1 < cfg0.N := Nat.lt_of_succ_lt h2
  have h0 : 4 * g.val < cfg0.N := Nat.lt_of_succ_lt h1
  have s0 : Chain.stepAt m c ⟨4 * g.val, h0⟩ (k0_pay1 (F := Ideal)) (ix2 p q)
      = 0 + blockSum (V m c main_arg0) (V m c main_arg1) r q 0 := by
    refine (Payload.step_apply (iblk m c 0 ⟨4 * g.val, h0⟩) (iblk m c 1 ⟨4 * g.val, h0⟩) (k0_pay1 (F := Ideal)) p q).trans ?_
    rw [Payload.reset_apply, point_sum m c ⟨4 * g.val, h0⟩ g 0 rfl p q r hr]
  have s1 : Chain.stepAt m c ⟨4 * g.val + 1, h1⟩ (Chain.stepAt m c ⟨4 * g.val, h0⟩ (k0_pay1 (F := Ideal))) (ix2 p q)
      = 0 + blockSum (V m c main_arg0) (V m c main_arg1) r q 0 + blockSum (V m c main_arg0) (V m c main_arg1) r q 1 := by
    refine (Payload.step_apply (iblk m c 0 ⟨4 * g.val + 1, h1⟩) (iblk m c 1 ⟨4 * g.val + 1, h1⟩) _ p q).trans ?_
    rw [s0, point_sum m c ⟨4 * g.val + 1, h1⟩ g 1 rfl p q r hr]
  have s2 : Chain.stepAt m c ⟨4 * g.val + 1 + 1, h2⟩ (Chain.stepAt m c ⟨4 * g.val + 1, h1⟩
        (Chain.stepAt m c ⟨4 * g.val, h0⟩ (k0_pay1 (F := Ideal)))) (ix2 p q)
      = 0 + blockSum (V m c main_arg0) (V m c main_arg1) r q 0 + blockSum (V m c main_arg0) (V m c main_arg1) r q 1
        + blockSum (V m c main_arg0) (V m c main_arg1) r q 2 := by
    refine (Payload.step_apply (iblk m c 0 ⟨4 * g.val + 1 + 1, h2⟩) (iblk m c 1 ⟨4 * g.val + 1 + 1, h2⟩) _ p q).trans ?_
    rw [s1, point_sum m c ⟨4 * g.val + 1 + 1, h2⟩ g 2 rfl p q r hr]
  rw [Chain.out_run m c (4 * g.val) h (by omega), dense_eq_chain]
  refine (Payload.step_apply (iblk m c 0 ⟨4 * g.val + 1 + 1 + 1, h⟩) (iblk m c 1 ⟨4 * g.val + 1 + 1 + 1, h⟩) _ p q).trans ?_
  rw [s2, point_sum m c ⟨4 * g.val + 1 + 1 + 1, h⟩ g 3 rfl p q r hr]

/-- What a writing point writes back is its block of `dense` of the two argument arrays. -/
theorem flushed_eq (c : Dev nD) (t : Fin cfg0.N) (hf : (cfg0.win 2).flush t = true) :
    (dats m 0 c).flushed 2 t
      = ((cfg0.win 2).blk t).view.read (Elt Ideal) (dense (V m c main_arg0) (V m c main_arg1)) := by
  have h3 : t.val % 4 = 3 := (flush0_2 t).mp hf
  have hN : cfg0.N = 32 := N_0
  obtain ⟨tv, htv⟩ := t
  dsimp only at h3
  obtain ⟨g, rfl⟩ : ∃ g : Fin 8, tv = 4 * g.val + 1 + 1 + 1 := ⟨⟨tv / 4, by omega⟩, by dsimp only; omega⟩
  obtain ⟨-, -, -, -, e4, e5⟩ := idx_facts ⟨4 * g.val + 1 + 1 + 1, htv⟩
  rw [Value.flushed2]
  funext j
  obtain ⟨p, q, rfl⟩ : ∃ (p : Fin 1024) (q : Fin 2048), j = ix2 p q := ⟨j 0, j 1, eq_ix2 j⟩
  have hg := g.isLt
  have hp := p.isLt
  show (outsAt0 m c (4 * g.val + 1 + 1 + 1) htv).1 (ix2 p q)
    = dense (V m c main_arg0) (V m c main_arg1) (((cfg0.win 2).blk ⟨4 * g.val + 1 + 1 + 1, htv⟩).view.emb (ix2 p q))
  rw [out_eq_dense m c g htv p q ⟨1024 * g.val + p.val, by omega⟩ rfl]
  refine congrArg (dense (V m c main_arg0) (V m c main_arg1)) (funext fun a => Fin.ext ?_)
  match a with
  | ⟨0, _⟩ =>
    show 1024 * g.val + p.val = win0_2.index ⟨4 * g.val + 1 + 1 + 1, htv⟩ (0 : Fin 2) * 1024 + 1 * p.val
    rw [e4]; dsimp only; omega
  | ⟨1, _⟩ =>
    show q.val = win0_2.index ⟨4 * g.val + 1 + 1 + 1, htv⟩ (1 : Fin 2) * 2048 + 1 * q.val
    rw [e5]; omega

/-- An index of the result array lies in point `t`'s block iff each coordinate lies in the block's range on its axis. -/
theorem mem_blk (t : Fin cfg0.N) (i : S8192x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- Every index of the result array lies in a written block: row `r` in the block of the last point of row block
    `r / 1024`. -/
theorem cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 32 := N_0
  have hb : 4 * ((i 0).val / 1024) + 3 < cfg0.N := by omega
  obtain ⟨-, -, -, -, e4, e5⟩ := idx_facts ⟨4 * ((i 0).val / 1024) + 3, hb⟩
  refine ⟨⟨4 * ((i 0).val / 1024) + 3, hb⟩, (flush0_2 _).mpr (by dsimp only; omega), ?_⟩
  rw [mem_blk]
  intro a
  match a with
  | ⟨0, _⟩ =>
    show win0_2.index ⟨4 * ((i 0).val / 1024) + 3, hb⟩ (0 : Fin 2) * 1024 ≤ (i 0).val
      ∧ (i 0).val < win0_2.index ⟨4 * ((i 0).val / 1024) + 3, hb⟩ (0 : Fin 2) * 1024 + 1024
    rw [e4]; dsimp only; omega
  | ⟨1, _⟩ =>
    show win0_2.index ⟨4 * ((i 0).val / 1024) + 3, hb⟩ (1 : Fin 2) * 2048 ≤ (i 1).val
      ∧ (i 1).val < win0_2.index ⟨4 * ((i 0).val / 1024) + 3, hb⟩ (1 : Fin 2) * 2048 + 2048
    rw [e5]; omega

/-- So the result array ends holding `dense` of the two argument arrays. -/
theorem final (c : Dev nD) :
    (dats m 0 c).arrAt 2 cfg0.N
      = dense (m ((c : Thread nD τ).loc main_arg0)) (m ((c : Thread nD τ).loc main_arg1)) :=
  (dats m 0 c).arrAt_eq_of_cover 2 (dense (V m c main_arg0) (V m c main_arg1)) (flushed_eq m c) cover

/-- The kernel's run, read: every weakly fair execution terminates with the result array at `dense` of the arguments,
    the arguments unchanged. -/
theorem run : θ_run defs (onTc (τ := τ) (main (F := Ideal))) ⟨m, fun _ => 0, ρ⟩ fun r => ∀ c : Dev nD,
      r.2.mem ((c : Thread nD τ).loc main_v0)
        = dense (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefIsDense.lean ====
/-
  The reference computes `dense`.

  Entry by entry the reference selects, on `0 ≤ a`, between the constant one and the negation of the constant one —
  the two-valued sign of `a` — for every entry of both arguments, and contracts the two arrays of signs over the
  2048 shared positions: the sum that defines `dense`.
-/
import proofs.«142266_j44908178047611_1_alg».proof.Proof.Gen.ReferenceIdeal.Read
import proofs.«142266_j44908178047611_1_alg».proof.Proof.Spec

noncomputable section

namespace Cert.ReferenceIdeal.RefValue

open Cert.ReferenceIdeal Cert.ReferenceIdeal.Read Idealize.ShloMosaic Idealize.ShloMosaic.ValueIdx Cert.BinaryDense

/-- The reference's binarized first argument is the two-valued sign of each entry: its `-1` is the negation of the
    word of `1.0`, which is what the word of `-1.0` denotes. -/
theorem sign_x (x : (⟨S8192x2048, .f32⟩ : BufTy).Contents (Elt Ideal)) (j : S8192x2048.Idx) :
    val_main_v5 (F := Ideal) x j = bsign (x j) := by
  rw [val_main_v5_apply, val_main_v1_apply, val_main_v0_apply, val_main_cst_apply, val_main_v2_apply,
    val_main_cst_0_apply, val_main_v4_apply, val_main_v3_apply, val_main_cst_1_apply]
  unfold bsign
  rw [ofBits_neg_one_f32]
  rfl

/-- The same for the second argument. -/
theorem sign_w (w : (⟨S2048x2048, .f32⟩ : BufTy).Contents (Elt Ideal)) (j : S2048x2048.Idx) :
    val_main_v11 (F := Ideal) w j = bsign (w j) := by
  rw [val_main_v11_apply, val_main_v7_apply, val_main_v6_apply, val_main_cst_2_apply, val_main_v8_apply,
    val_main_cst_3_apply, val_main_v10_apply, val_main_v9_apply, val_main_cst_4_apply]
  unfold bsign
  rw [ofBits_neg_one_f32]
  rfl

/-- The reference's result is `dense` of its two arguments. -/
theorem result_eq_dense (x : (⟨S8192x2048, .f32⟩ : BufTy).Contents (Elt Ideal))
    (w : (⟨S2048x2048, .f32⟩ : BufTy).Contents (Elt Ideal)) :
    val_main_v12 (F := Ideal) x w = dense x w := by
  funext i
  rw [val_main_v12_apply]
  unfold dense
  refine Finset.sum_congr rfl fun k _ => ?_
  rw [sign_x, sign_w]
  have el : lidx_main_v12 i k = ix2 (i 0 : Fin 8192) k :=
    funext fun a => by match a with | ⟨0, _⟩ => rfl | ⟨1, _⟩ => rfl
  have er : ridx_main_v12 i k = ix2 k (i 1 : Fin 2048) :=
    funext fun a => by match a with | ⟨0, _⟩ => rfl | ⟨1, _⟩ => rfl
  rw [el, er]
  rfl

end Cert.ReferenceIdeal.RefValue

end
-- ==== Proof.lean ====
/-
  The binarized dense layer: a Pallas kernel against `jnp.matmul` of the binarized arguments.

  Both programs compute, for `x : [8192, 2048]` and `w : [2048, 2048]`,

      out (r, q) = ∑ k < 2048, s(x (r, k)) · s(w (k, q)),      s(a) = +1 if 0 ≤ a, −1 otherwise.

  The reference binarizes both arrays on the host (its `−1` is the negation of `1`) and contracts them in one
  `dot_general`. The kernel walks an `8 × 4` grid: for each block of 1024 rows it visits the four blocks of 512
  contracted positions in order, binarizes the two input blocks, multiplies them in the matrix unit (the bf16 rounding
  of ±1 on the way in is the identity on the extended reals) and adds the product onto an accumulator that the first
  of the four points resets to zero; the last of the four copies the accumulator into the output block, which is
  written back there and nowhere else.

  So the kernel's entry is `0 + B₀ + B₁ + B₂ + B₃` with `Bⱼ` the sum over contraction block `j`, and the reference's
  is the sum over all 2048 positions at once. These are equal because addition of extended reals is commutative and
  associative with `0` neutral; no entry needs to be finite, so the precondition is not used for the value. The ideal
  pass rewrote nothing, so the kernel's idealization is the kernel's own text.
-/
import proofs.«142266_j44908178047611_1_alg».proof.Defs
import proofs.«142266_j44908178047611_1_alg».proof.Proof.Gen.Kernel
import proofs.«142266_j44908178047611_1_alg».proof.Proof.Gen.Kernel.Skeleton
import proofs.«142266_j44908178047611_1_alg».proof.Proof.Gen.Kernel.Launch
import proofs.«142266_j44908178047611_1_alg».proof.Proof.Gen.Kernel.Points
import proofs.«142266_j44908178047611_1_alg».proof.Proof.Gen.Kernel.Frame
import proofs.«142266_j44908178047611_1_alg».proof.Proof.Gen.KernelIdeal
import proofs.«142266_j44908178047611_1_alg».proof.Proof.Gen.KernelIdeal.Skeleton
import proofs.«142266_j44908178047611_1_alg».proof.Proof.Gen.KernelIdeal.Launch
import proofs.«142266_j44908178047611_1_alg».proof.Proof.Gen.KernelIdeal.Points
import proofs.«142266_j44908178047611_1_alg».proof.Proof.Gen.KernelIdeal.Frame
import proofs.«142266_j44908178047611_1_alg».proof.Proof.Gen.ReferenceIdeal
import proofs.«142266_j44908178047611_1_alg».proof.Proof.Gen.Pre_finite_inputs
import proofs.«142266_j44908178047611_1_alg».proof.Proof.Gen.KernelIdeal.Value
import proofs.«142266_j44908178047611_1_alg».proof.Proof.Gen.ReferenceIdeal.Run
import proofs.«142266_j44908178047611_1_alg».proof.Proof.Gen.ReferenceIdeal.Read
import proofs.«142266_j44908178047611_1_alg».proof.Proof.Blocks
import proofs.«142266_j44908178047611_1_alg».proof.Proof.RefIsDense
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: nothing to preserve. -/
theorem preserves : Cert.preserves_Kernel_KernelIdeal := trivial

/-- From memories that agree on the two arguments, the kernel's result array ends at `dense` of its arguments and the
    reference's at `dense` of its own: the same array. -/
theorem algebraic : Cert.algebraic_KernelIdeal_ReferenceIdeal := by
  intro m ρ m' ρ' _ hagree
  refine ⟨fun c => Cert.BinaryDense.dense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.result_eq_dense,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
